-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S10x5 : Shape := ⟨2, ![10, 5]⟩
abbrev S10 : Shape := ⟨1, ![10]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel
  bcast_S_S10x5 : S_.BroadcastsInDim S10x5 (![] : Fin 0 → Fin S10x5.rank)
  reducesTo_S10x5_S_d0_1 : S10x5.ReducesTo [0, 1] S_
  bcast_S_S10 : S_.BroadcastsInDim S10 (![] : Fin 0 → Fin S10.rank)
  reducesTo_S10_S_d0 : S10.ReducesTo [0] S_

variable [Facts]

def fn {F : FTy → Type} [FloatOps F] (main_arg0 : FVec F S4000000x5 .f32) (main_arg1 : FVec F S10x5 .f32) (main_arg2 : FVec F S10 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S10x5 .f32 := Host.absf main_arg1
  let main_cst_0 : FVec F S_ .f32 := constant S_ .f32 0x7F800000#32
  let main_v5 : FVec F S10x5 .f32 := broadcastInDim S10x5 ![] bcast_S_S10x5 main_cst_0
  let main_v6 : IVec S10x5 1 := cmpf .olt main_v4 main_v5
  let main_c_1 : IVec S_ 1 := constantI S_ 1 1#1
  let main_v7 : IVec S_ 1 := (fun x v => Host.reduce IntOp.andi x v reducesTo_S10x5_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S4000000x5 : Shape := ⟨2, ![4000000, 5]⟩
abbrev S10x5 : Shape := ⟨2, ![10, 5]⟩
abbrev S10 : Shape := ⟨1, ![10]⟩
abbrev S_ : Shape := ⟨0, ![]⟩
abbrev S10x1 : Shape := ⟨2, ![10, 1]⟩
abbrev S5x10 : Shape := ⟨2, ![5, 10]⟩
abbrev S128x128 : Shape := ⟨2, ![128, 128]⟩
abbrev S128x1x128x1 : Shape := ⟨4, ![128, 1, 128, 1]⟩
abbrev S1x5x1x10 : Shape := ⟨4, ![1, 5, 1, 10]⟩
abbrev S128x5x128x10 : Shape := ⟨4, ![128, 5, 128, 10]⟩
abbrev S640x1280 : Shape := ⟨2, ![640, 1280]⟩
abbrev S1x10 : Shape := ⟨2, ![1, 10]⟩
abbrev S128x10 : Shape := ⟨2, ![128, 10]⟩
abbrev S1280 : Shape := ⟨1, ![1280]⟩
abbrev S1x1280 : Shape := ⟨2, ![1, 1280]⟩
abbrev S31250x640 : Shape := ⟨2, ![31250, 640]⟩
abbrev S31250x1280 : Shape := ⟨2, ![31250, 1280]⟩
abbrev S2000x640 : Shape := ⟨2, ![2000, 640]⟩
abbrev S2000x1280 : Shape := ⟨2, ![2000, 1280]⟩
abbrev S4000000x10 : Shape := ⟨2, ![4000000, 10]⟩

abbrev nBuf : Space → Nat
  | .hbm => 48
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S10x5, .f32⟩
  | .hbm, ⟨2, _⟩ => ⟨S10, .f32⟩
  | .hbm, ⟨3, _⟩ => ⟨S10x5, .f32⟩
  | .hbm, ⟨4, _⟩ => ⟨S_, .f32⟩
  | .hbm, ⟨5, _⟩ => ⟨S10, .f32⟩
  | .hbm, ⟨6, _⟩ => ⟨S10x1, .f32⟩
  | .hbm, ⟨7, _⟩ => ⟨S_, .f32⟩
  | .hbm, ⟨8, _⟩ => ⟨S10x1, .f32⟩
  | .hbm, ⟨9, _⟩ => ⟨S10x1, .f32⟩
  | .hbm, ⟨10, _⟩ => ⟨S_, .f32⟩
  | .hbm, ⟨11, _⟩ => ⟨S10x1, .f32⟩
  | .hbm, ⟨12, _⟩ => ⟨S10x1, .f32⟩
  | .hbm, ⟨13, _⟩ => ⟨S10x5, .f32⟩
  | .hbm, ⟨14, _⟩ => ⟨S10x5, .f32⟩
  | .hbm, ⟨15, _⟩ => ⟨S10x5, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S10x5, .f32⟩
  | .hbm, ⟨20, _⟩ => ⟨S10x5, .f32⟩
  | .hbm, ⟨21, _⟩ => ⟨S_, .f32⟩
  | .hbm, ⟨22, _⟩ => ⟨S10x5, .f32⟩
  | .hbm, ⟨23, _⟩ => ⟨S10x5, .f32⟩
  | .hbm, ⟨24, _⟩ => ⟨S10x5, .f32⟩
  | .hbm, ⟨25, _⟩ => ⟨S10x5, .f32⟩
  | .hbm, ⟨26, _⟩ => ⟨S5x10, .f32⟩
  | .hbm, ⟨27, _⟩ => ⟨S128x128, .i32⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S128x128, .f32⟩
  | .hbm, ⟨34, _⟩ => ⟨S128x1x128x1, .f32⟩
  | .hbm, ⟨35, _⟩ => ⟨S1x5x1x10, .f32⟩
  | .hbm, ⟨36, _⟩ => ⟨S128x5x128x10, .f32⟩
  | .hbm, ⟨37, _⟩ => ⟨S128x5x128x10, .f32⟩
  | .hbm, ⟨38, _⟩ => ⟨S128x5x128x10, .f32⟩
  | .hbm, ⟨39, _⟩ => ⟨S640x1280, .f32⟩
  | .hbm, ⟨40, _⟩ => ⟨S640x1280, .bf16⟩
  | .hbm, ⟨41, _⟩ => ⟨S1x10, .f32⟩
  | .hbm, ⟨42, _⟩ => ⟨S128x10, .f32⟩
  | .hbm, ⟨43, _⟩ => ⟨S1280, .f32⟩
  | .hbm, ⟨44, _⟩ => ⟨S1x1280, .f32⟩
  | .hbm, ⟨45, _⟩ => ⟨S31250x640, .f32⟩
  | .hbm, ⟨46, _⟩ => ⟨S31250x1280, .f32⟩
  | .hbm, ⟨47, _⟩ => ⟨S4000000x10, .f32⟩
  | .local _ .vmem, ⟨0, _⟩ => ⟨S2000x640, .f32⟩
  | .local _ .vmem, ⟨1, _⟩ => ⟨S2000x640, .f32⟩
  | .local _ .vmem, ⟨2, _⟩ => ⟨S640x1280, .bf16⟩
  | .local _ .vmem, ⟨3, _⟩ => ⟨S1x1280, .f32⟩
  | .local _ .vmem, ⟨4, _⟩ => ⟨S2000x1280, .f32⟩
  | .local _ .vmem, ⟨5, _⟩ => ⟨S2000x1280, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S10x5_S10_d1 : S10x5.ReducesTo [1] S10
  h_S_ : 0 < S_.numel
  bcast_S10_S10x1_0 : S10.BroadcastsInDim S10x1 (![0] : Fin 1 → Fin S10x1.rank)
  bcast_S_S10x1 : S_.BroadcastsInDim S10x1 (![] : Fin 0 → Fin S10x1.rank)
  bcast_S10x1_S10x5_0_1 : S10x1.BroadcastsInDim S10x5 (![0, 1] : Fin 2 → Fin S10x5.rank)
  bcast_S_S10x5 : S_.BroadcastsInDim S10x5 (![] : Fin 0 → Fin S10x5.rank)
  transposes_S10x5_S5x10_1_0 : S10x5.Transposes [1, 0] S5x10
  bcast_S_S128x128 : S_.BroadcastsInDim S128x128 (![] : Fin 0 → Fin S128x128.rank)
  bcast_S128x128_S128x1x128x1_0_2 : S128x128.BroadcastsInDim S128x1x128x1 (![0, 2] : Fin 2 → Fin S128x1x128x1.rank)
  bcast_S5x10_S1x5x1x10_1_3 : S5x10.BroadcastsInDim S1x5x1x10 (![1, 3] : Fin 2 → Fin S1x5x1x10.rank)
  bcast_S128x1x128x1_S128x5x128x10_0_1_2_3 : S128x1x128x1.BroadcastsInDim S128x5x128x10 (![0, 1, 2, 3] : Fin 4 → Fin S128x5x128x10.rank)
  bcast_S1x5x1x10_S128x5x128x10_0_1_2_3 : S1x5x1x10.BroadcastsInDim S128x5x128x10 (![0, 1, 2, 3] : Fin 4 → Fin S128x5x128x10.rank)
  shapeCasts_S128x5x128x10_S640x1280 : S128x5x128x10.ShapeCasts S640x1280
  bitsLt_bf16_f32 : FTy.bits .bf16 < FTy.bits .f32
  shapeCasts_S10_S1x10 : S10.ShapeCasts S1x10
  bcast_S1x10_S128x10_0_1 : S1x10.BroadcastsInDim S128x10 (![0, 1] : Fin 2 → Fin S128x10.rank)
  shapeCasts_S128x10_S1280 : S128x10.ShapeCasts S1280
  shapeCasts_S1280_S1x1280 : S1280.ShapeCasts S1x1280
  shapeCasts_S4000000x5_S31250x640 : S4000000x5.ShapeCasts S31250x640
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  inb_S640x1280_S640x1280_0_0 : ∀ a, (![0, 0] : Fin 2 → Nat) a + S640x1280.size a ≤ S640x1280.size a
  h_S640x1280 : 0 < S640x1280.numel
  shapeCasts_S640x1280_S640x1280 : S640x1280.ShapeCasts S640x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S2000x1280 : S1x1280.Broadcasts S2000x1280
  inb_S2000x1280_S2000x1280_0_0 : ∀ a, (![0, 0] : Fin 2 → Nat) a + S2000x1280.size a ≤ S2000x1280.size a
  h_S2000x1280 : 0 < S2000x1280.numel
  shapeCasts_S31250x1280_S4000000x10 : S31250x1280.ShapeCasts S4000000x10
  dot_S2000x640_S640x1280_S2000x1280_1_0_0_1_n_n_wf : DotDims.WF S2000x640 S640x1280 S2000x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2000x640.size a < S31250x640.size a
  hwx0_0 : ∀ i : grid0.Coords, EltTy.bits .f32 = 32 ∨ (Rect.unit (s := S31250x640) (fun a => cc0_transform_0 i a * S2000x640.size a) (fun a => (Pipeline.Clip.of (cc0_transform_0 i a) (S2000x640.size a) (S31250x640.size a)).extent (S2000x640.size a)) fun a => Pipeline.Clip.inb (Pipeline.Clip.ok_of (hstart0_0 i a))).WholeWords (EltTy.packing .f32)
  hwxs0_0 : ∀ i : grid0.Coords, EltTy.bits .f32 = 32 ∨ (Rect.unit (s := S2000x640) (fun _ => 0) (fun a => (Pipeline.Clip.of (cc0_transform_0 i a) (S2000x640.size a) (S31250x640.size a)).extent (S2000x640.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x1280.size a ≤ S640x1280.size a
  hwx0_1 : ∀ i : grid0.Coords, EltTy.bits .bf16 = 32 ∨ (Rect.block (s := S640x1280) S640x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2000x1280.size a < S31250x1280.size a
  hwx0_3 : ∀ i : grid0.Coords, EltTy.bits .f32 = 32 ∨ (Rect.unit (s := S31250x1280) (fun a => cc0_transform_3 i a * S2000x1280.size a) (fun a => (Pipeline.Clip.of (cc0_transform_3 i a) (S2000x1280.size a) (S31250x1280.size a)).extent (S2000x1280.size a)) fun a => Pipeline.Clip.inb (Pipeline.Clip.ok_of (hstart0_3 i a))).WholeWords (EltTy.packing .f32)
  hwxs0_3 : ∀ i : grid0.Coords, EltTy.bits .f32 = 32 ∨ (Rect.unit (s := S2000x1280) (fun _ => 0) (fun a => (Pipeline.Clip.of (cc0_transform_3 i a) (S2000x1280.size a) (S31250x1280.size a)).extent (S2000x1280.size a)) fun a => (Nat.zero_add _).trans_le (Pipeline.Clip.extent_le (Pipeline.Clip.ok_of (hstart0_3 i a)))).WholeWords (EltTy.packing .f32)

variable [Facts₀]

def dot_S2000x640_S640x1280_S2000x1280_1_0_0_1_n_n : DotDims S2000x640 S640x1280 S2000x1280 where
  lhsContracting := [1]
  rhsContracting := [0]
  lhsNonContracting := [0]
  rhsNonContracting := [1]
  lhsBatch := []
  rhsBatch := []
  wf := dot_S2000x640_S640x1280_S2000x1280_1_0_0_1_n_n_wf

abbrev win0_0 : Pipeline.Window sig grid0 :=
  Pipeline.Window.ofSpecClip (Memref.whole main_v26) S2000x640.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v21) S640x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v27) S2000x1280.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S10x5 : Shape := ⟨2, ![10, 5]⟩
abbrev S10 : Shape := ⟨1, ![10]⟩
abbrev S_ : Shape := ⟨0, ![]⟩
abbrev S10x1 : Shape := ⟨2, ![10, 1]⟩
abbrev S5x10 : Shape := ⟨2, ![5, 10]⟩
abbrev S4000000x10 : Shape := ⟨2, ![4000000, 10]⟩
abbrev S1x10 : Shape := ⟨2, ![1, 10]⟩

abbrev nBuf : Space → Nat
  | .hbm => 31
  | .vmem => 0
  | .smem => 0
  | _ => 0

abbrev bufTy : (tb : Table) → Fin (tcTables nBuf tb) → BufTy
  | .hbm, ⟨0, _⟩ => ⟨S4000000x5, .f32⟩
  | .hbm, ⟨1, _⟩ => ⟨S10x5, .f32⟩
  | .hbm, ⟨2, _⟩ => ⟨S10, .f32⟩
  | .hbm, ⟨3, _⟩ => ⟨S10x5, .f32⟩
  | .hbm, ⟨4, _⟩ => ⟨S_, .f32⟩
  | .hbm, ⟨5, _⟩ => ⟨S10, .f32⟩
  | .hbm, ⟨6, _⟩ => ⟨S10x1, .f32⟩
  | .hbm, ⟨7, _⟩ => ⟨S_, .f32⟩
  | .hbm, ⟨8, _⟩ => ⟨S10x1, .f32⟩
  | .hbm, ⟨9, _⟩ => ⟨S10x1, .f32⟩
  | .hbm, ⟨10, _⟩ => ⟨S_, .f32⟩
  | .hbm, ⟨11, _⟩ => ⟨S10x1, .f32⟩
  | .hbm, ⟨12, _⟩ => ⟨S10x1, .f32⟩
  | .hbm, ⟨13, _⟩ => ⟨S10x5, .f32⟩
  | .hbm, ⟨14, _⟩ => ⟨S10x5, .f32⟩
  | .hbm, ⟨15, _⟩ => ⟨S10x5, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S10x5, .f32⟩
  | .hbm, ⟨20, _⟩ => ⟨S10x5, .f32⟩
  | .hbm, ⟨21, _⟩ => ⟨S_, .f32⟩
  | .hbm, ⟨22, _⟩ => ⟨S10x5, .f32⟩
  | .hbm, ⟨23, _⟩ => ⟨S10x5, .f32⟩
  | .hbm, ⟨24, _⟩ => ⟨S10x5, .f32⟩
  | .hbm, ⟨25, _⟩ => ⟨S10x5, .f32⟩
  | .hbm, ⟨26, _⟩ => ⟨S5x10, .f32⟩
  | .hbm, ⟨27, _⟩ => ⟨S4000000x10, .f32⟩
  | .hbm, ⟨28, _⟩ => ⟨S1x10, .f32⟩
  | .hbm, ⟨29, _⟩ => ⟨S4000000x10, .f32⟩
  | .hbm, ⟨30, _⟩ => ⟨S4000000x10, .f32⟩
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  reducesTo_S10x5_S10_d1 : S10x5.ReducesTo [1] S10
  h_S_ : 0 < S_.numel
  bcast_S10_S10x1_0 : S10.BroadcastsInDim S10x1 (![0] : Fin 1 → Fin S10x1.rank)
  bcast_S_S10x1 : S_.BroadcastsInDim S10x1 (![] : Fin 0 → Fin S10x1.rank)
  bcast_S10x1_S10x5_0_1 : S10x1.BroadcastsInDim S10x5 (![0, 1] : Fin 2 → Fin S10x5.rank)
  bcast_S_S10x5 : S_.BroadcastsInDim S10x5 (![] : Fin 0 → Fin S10x5.rank)
  transposes_S10x5_S5x10_1_0 : S10x5.Transposes [1, 0] S5x10
  bcast_S10_S1x10_1 : S10.BroadcastsInDim S1x10 (![1] : Fin 1 → Fin S1x10.rank)
  bcast_S1x10_S4000000x10_0_1 : S1x10.BroadcastsInDim S4000000x10 (![0, 1] : Fin 2 → Fin S4000000x10.rank)
  dot_S4000000x5_S5x10_S4000000x10_1_0_0_1_n_n_wf : DotDims.WF S4000000x5 S5x10 S4000000x10 [1] [0] [0] [1] [] []

variable [Facts₀]

def dot_S4000000x5_S5x10_S4000000x10_1_0_0_1_n_n : DotDims S4000000x5 S5x10 S4000000x10 where
  lhsContracting := [1]
  rhsContracting := [0]
  lhsNonContracting := [0]
  rhsNonContracting := [1]
  lhsBatch := []
  rhsBatch := []
  wf := dot_S4000000x5_S5x10_S4000000x10_1_0_0_1_n_n_wf

class Facts : Prop extends Facts₀ where

variable [Facts]
-- ==== Proof.WordBody.lean ====
/-
  The word-level kernel's frame: the program runs to the end, nothing faults, and the three argument arrays end
  as launched. The last block of the rows of x and of the output hangs over the end of its array, so the
  staging buffers are described on the rows inside the arrays only, and of the output array nothing is said.
-/
import proofs.«140195_j31576599561040_2_alg».proof.Proof.Gen.Kernel.Frame
import proofs.«140195_j31576599561040_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.QLinear.WordBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store take a whole staging buffer -/

abbrev rX : Rect S2000x640 := Rect.unit (s := S2000x640) ![0, 0] S2000x640.size inb_S2000x640_S2000x640_0_0
abbrev rW : Rect S640x1280 := Rect.unit (s := S640x1280) ![0, 0] S640x1280.size inb_S640x1280_S640x1280_0_0
abbrev rB : Rect S1x1280 := Rect.unit (s := S1x1280) ![0, 0] S1x1280.size inb_S1x1280_S1x1280_0_0
abbrev rO : Rect S2000x1280 := Rect.unit (s := S2000x1280) ![0, 0] S2000x1280.size inb_S2000x1280_S2000x1280_0_0

/-- What the body leaves in the output's staging buffer, from what the three input buffers hold: the block of
    rows times the big weight plus the bias row, stored whole. -/
def outBlk (x0 : Vec F S2000x640 .f32) (x1 : Vec F S640x1280 .bf16) (x2 : Vec F S1x1280 .f32) : Vec F S2000x1280 .f32 :=
  View.canon [⟨rO, k0_pay1 (View.ld x0 rX) (View.ld x1 rW) (View.ld x2 rB)⟩]

/-- The one store tiles the buffer, so it covers it. -/
theorem coverO (p0 : Vec F S2000x1280 .f32) (y : S2000x1280.Idx) :
    ∃ pc ∈ ([⟨rO, p0⟩] : List (View.Piece (Elt F) S2000x1280 .f32)), y ∈ pc.1.set :=
  View.cover_of_tiled [⟨rO, p0⟩] S2000x1280.size (by rfl) y

set_option maxHeartbeats 1000000 in
/-- The kernel body on whole staging memrefs: the three inputs' buffers at contents x0, x1, x2 and the output's at
    anything; it ends with the inputs' as they were and the output's at outBlk of them. -/
theorem sound_kernel (c : Dev nD) (E : Set ℕ) (i : grid0.Coords)
    (arg1 : Memref sig .tc .vmem S2000x640 .f32) (harg1 : arg1.IsWhole) (arg2 : Memref sig .tc .vmem S640x1280 .bf16) (harg2 : arg2.IsWhole)
    (arg3 : Memref sig .tc .vmem S1x1280 .f32) (harg3 : arg3.IsWhole) (arg4 : Memref sig .tc .vmem S2000x1280 .f32) (harg4 : arg4.IsWhole)
    (x0 : Vec F S2000x640 .f32) (x1 : Vec F S640x1280 .bf16) (x2 : Vec F S1x1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data

  The first window (the rows of x) and the output window both hang over the end of their arrays at the last grid
  point: a fetch lands only the rows inside the array, the rest of the staging buffer holds words nothing names,
  and a write-back writes only the rows inside the array. So after the body the proof data names each of these two
  buffers on the rows inside the array only, filled out past them with the zero word, which nothing reads. -/

/-- The rows of x at point t as the fetch lands them, filled out with the zero word past the array's end. -/
def xfill (c : Dev nD) (t : Fin cfg0.N) : S2000x640.Idx → Elt F .f32 :=
  win0_0.fill (grid0.coords t) (fun _ => Scalar.ofBits .f32 0#32) (iblk m c 0 t)

/-- The arrays as the region finds them; after the body at point t the x buffer at its rows (filled out), the
    weight's and the bias row's buffers at their whole blocks, the output's at the body's result of those. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => outBlk (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (xfill m c t) (iblk m c 1 t) (iblk m c 2 t) := by dsimp only [dats]

/-- The x buffer is fetched at every point: the body finds the rows inside the array there and, past them, whatever
    the buffer held. -/
theorem before0_0 (c : Dev nD) (t : Fin cfg0.N) (d) :
    (dats m 0 c).before 0 t d = win0_0.fill (grid0.coords t) d (iblk m c 0 t) := by
  unfold Dat.before; rw [if_pos (fetch0_0 t)]; rfl
/-- The weight's and the bias row's buffers hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The output's buffer was written back at the point before (or nothing has touched it): it holds anything. -/
theorem before0_3 (c : Dev nD) (t : Fin cfg0.N) (d) : (dats m 0 c).before 3 t d = d :=
  (dats m 0 c).before_out_reset 3 rfl t (by
    by_cases h0 : t.val = 0
    · exact .inl h0
    · exact .inr ⟨h0, flush0_3 _⟩) d

/-! ## The body obligation, the output window forgotten

  At the word level nothing is claimed of the output array, so the output's staging buffer is handed to the body at
  any contents and taken back at any contents. -/

/-- The windows whose contents the run does not name: the output's. -/
abbrev forgets : Fin cfg0.W → Bool := fun | 0 => false | 1 => false | 2 => false | 3 => true | ⟨_ + 4, h⟩ => absurd h (Nat.not_lt.2 (Nat.le_add_left _ _))

theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ X, owns (c : Thread nD τ) (st0_3 t) fullShare X))
      ⊢ wp frame (wpE (defs₀ (F := F)) Variants.none c none) Set.univ (bodyAt0 t) (fun _ =>
          iprop((dats m 0 c).Φ t.succ ∗ (dats m 0 c).owesAt () t.succ
            ∗ (∃ d, owns (c : Thread nD τ) (st0_0 t) fullShare
                (win0_0.fill (grid0.coords t) d (win0_0.cut (grid0.coords t) ((dats m 0 c).after 0 t))))
            ∗ owns (c : Thread nD τ) (st0_1 t) fullShare ((dats m 0 c).after 1 t)
            ∗ owns (c : Thread nD τ) (st0_2 t) fullShare ((dats m 0 c).after 2 t)
            ∗ (∃ X, owns (c : Thread nD τ) (st0_3 t) fullShare X))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (xfill m c t) = iblk m c 0 t from win0_0.cut_fill _ _ _]
    iexact H0
  isplitl [H1]; · iexact H1
  isplitl [H2]; · iexact H2
  iexists _; iexact H3

theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The one buffer the reshape after the region writes. -/
def T0 : Finset (Ref sig .tc) := {main_v28}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution terminates, nothing faulting, and every buffer that is neither an array of the
    pipeline nor written after the region ends as the region found it. -/
theorem run_main :
    θ_run defs (onTc (τ := τ) (main (F := F))) (s₀ m ρ)
      (Pipeline.RDat.FramePostR (cfgs 0) (fun c => (dats m 0 c).toRForget forgets) T0 (V m)) :=
  Pipeline.RDat.θ_run_frame_around_T cfgs (0 : Fin 1) launch0 defs₀ Variants.none (fun c => (dats m 0 c).toRForget forgets) T0 m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The three argument arrays are no array of the pipeline and nothing writes them: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c)⟩)
    (run_main m ρ)

end Cert.QLinear.WordBody

end
-- ==== Proof.IdealBody.lean ====
/-
  The idealized kernel's pipeline run: what each grid point's body does to the staging buffers, what the
  buffers hold from point to point when the last block hangs over the end of the arrays, and the run of the
  whole program from that.
-/
import proofs.«140195_j31576599561040_2_alg».proof.Proof.Gen.KernelIdeal.Frame
import proofs.«140195_j31576599561040_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.QLinear.IdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store take a whole staging buffer -/

abbrev rX : Rect S2000x640 := Rect.unit (s := S2000x640) ![0, 0] S2000x640.size inb_S2000x640_S2000x640_0_0
abbrev rW : Rect S640x1280 := Rect.unit (s := S640x1280) ![0, 0] S640x1280.size inb_S640x1280_S640x1280_0_0
abbrev rB : Rect S1x1280 := Rect.unit (s := S1x1280) ![0, 0] S1x1280.size inb_S1x1280_S1x1280_0_0
abbrev rO : Rect S2000x1280 := Rect.unit (s := S2000x1280) ![0, 0] S2000x1280.size inb_S2000x1280_S2000x1280_0_0

/-- What the body leaves in the output's staging buffer, from what the three input buffers hold: the block of
    rows times the big weight plus the bias row, stored whole. -/
def outBlk (x0 : Vec F S2000x640 .f32) (x1 : Vec F S640x1280 .bf16) (x2 : Vec F S1x1280 .f32) : Vec F S2000x1280 .f32 :=
  View.canon [⟨rO, k0_pay1 (View.ld x0 rX) (View.ld x1 rW) (View.ld x2 rB)⟩]

/-- The one store tiles the buffer, so it covers it. -/
theorem coverO (p0 : Vec F S2000x1280 .f32) (y : S2000x1280.Idx) :
    ∃ pc ∈ ([⟨rO, p0⟩] : List (View.Piece (Elt F) S2000x1280 .f32)), y ∈ pc.1.set :=
  View.cover_of_tiled [⟨rO, p0⟩] S2000x1280.size (by rfl) y

set_option maxHeartbeats 1000000 in
/-- The kernel body on whole staging memrefs: the three inputs' buffers at contents x0, x1, x2 and the output's at
    anything; it ends with the inputs' as they were and the output's at outBlk of them. -/
theorem sound_kernel (c : Dev nD) (E : Set ℕ) (i : grid0.Coords)
    (arg1 : Memref sig .tc .vmem S2000x640 .f32) (harg1 : arg1.IsWhole) (arg2 : Memref sig .tc .vmem S640x1280 .bf16) (harg2 : arg2.IsWhole)
    (arg3 : Memref sig .tc .vmem S1x1280 .f32) (harg3 : arg3.IsWhole) (arg4 : Memref sig .tc .vmem S2000x1280 .f32) (harg4 : arg4.IsWhole)
    (x0 : Vec F S2000x640 .f32) (x1 : Vec F S640x1280 .bf16) (x2 : Vec F S1x1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data

  The first window (the rows of x) and the output window both hang over the end of their arrays at the last grid
  point: a fetch lands only the rows inside the array, the rest of the staging buffer holds words nothing names,
  and a write-back writes only the rows inside the array. So after the body the proof data names each of these two
  buffers on the rows inside the array only, filled out past them with the zero word, which nothing reads. -/

/-- The rows of x at point t as the fetch lands them, filled out with the zero word past the array's end. -/
def xfill (c : Dev nD) (t : Fin cfg0.N) : S2000x640.Idx → Elt F .f32 :=
  win0_0.fill (grid0.coords t) (fun _ => Scalar.ofBits .f32 0#32) (iblk m c 0 t)

/-- The arrays as the region finds them; after the body at point t the x buffer at its rows (filled out), the
    weight's and the bias row's buffers at their whole blocks, the output's at the body's result of those. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => outBlk (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (xfill m c t) (iblk m c 1 t) (iblk m c 2 t) := by dsimp only [dats]

/-- The x buffer is fetched at every point: the body finds the rows inside the array there and, past them, whatever
    the buffer held. -/
theorem before0_0 (c : Dev nD) (t : Fin cfg0.N) (d) :
    (dats m 0 c).before 0 t d = win0_0.fill (grid0.coords t) d (iblk m c 0 t) := by
  unfold Dat.before; rw [if_pos (fetch0_0 t)]; rfl
/-- The weight's and the bias row's buffers hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The output's buffer was written back at the point before (or nothing has touched it): it holds anything. -/
theorem before0_3 (c : Dev nD) (t : Fin cfg0.N) (d) : (dats m 0 c).before 3 t d = d :=
  (dats m 0 c).before_out_reset 3 rfl t (by
    by_cases h0 : t.val = 0
    · exact .inl h0
    · exact .inr ⟨h0, flush0_3 _⟩) d

/-! ## The body obligation -/

/-- ROW LOCALITY: on the rows inside the array, the body's result does not depend on what the x buffer holds past
    the array's end. -/
def RowLocal : Prop :=
  ∀ (t : Fin cfg0.N) (d d' : S2000x640.Idx → Elt F .f32) (g : (win0_0.xblock (grid0.coords t)).Idx → Elt F .f32)
    (x1 : Vec F S640x1280 .bf16) (x2 : Vec F S1x1280 .f32),
    win0_3.cut (grid0.coords t) (outBlk (win0_0.fill (grid0.coords t) d g) x1 x2)
      = win0_3.cut (grid0.coords t) (outBlk (win0_0.fill (grid0.coords t) d' g) x1 x2)

/-- The body at any point: it finds the x rows (and anything past them), the weight, the bias row, and an output
    buffer holding anything; it leaves the inputs as found and the output at its result, which on the rows inside
    the array is the named one (row locality). -/
theorem sound_body (hloc : RowLocal (F := F)) (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) (fun _ =>
          iprop((dats m 0 c).Φ t.succ ∗ (dats m 0 c).owesAt () t.succ
            ∗ (∃ d, owns (c : Thread nD τ) (st0_0 t) fullShare
                (win0_0.fill (grid0.coords t) d (win0_0.cut (grid0.coords t) ((dats m 0 c).after 0 t))))
            ∗ owns (c : Thread nD τ) (st0_1 t) fullShare ((dats m 0 c).after 1 t)
            ∗ owns (c : Thread nD τ) (st0_2 t) fullShare ((dats m 0 c).after 2 t)
            ∗ (∃ d, owns (c : Thread nD τ) (st0_3 t) fullShare
                (win0_3.fill (grid0.coords t) d (win0_3.cut (grid0.coords t) ((dats m 0 c).after 3 t)))))) := by
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (xfill m c t) = iblk m c 0 t from win0_0.cut_fill _ _ _]
    iexact H0
  isplitl [H1]; · iexact H1
  isplitl [H2]; · iexact H2
  iexists outBlk (win0_0.fill (grid0.coords t) d0 (iblk m c 0 t)) (iblk m c 1 t) (iblk m c 2 t)
  have hfill : win0_3.fill (grid0.coords t) (outBlk (win0_0.fill (grid0.coords t) d0 (iblk m c 0 t)) (iblk m c 1 t) (iblk m c 2 t))
      (win0_3.cut (grid0.coords t) (outBlk (xfill m c t) (iblk m c 1 t) (iblk m c 2 t)))
      = outBlk (win0_0.fill (grid0.coords t) d0 (iblk m c 0 t)) (iblk m c 1 t) (iblk m c 2 t) :=
    win0_3.fill_congr_cut (grid0.coords t)
      (hloc t d0 (fun _ => Scalar.ofBits .f32 0#32) (iblk m c 0 t) (iblk m c 1 t) (iblk m c 2 t))
  change _ ⊢ owns (c : Thread nD τ) (st0_3 t) fullShare
    (win0_3.fill (grid0.coords t) (outBlk (win0_0.fill (grid0.coords t) d0 (iblk m c 0 t)) (iblk m c 1 t) (iblk m c 2 t))
      (win0_3.cut (grid0.coords t) (outBlk (xfill m c t) (iblk m c 1 t) (iblk m c 2 t))))
  rw [hfill]

/-- The library's body obligation, every window that hangs over its array stated on the rows inside it only. -/
theorem body_obligation (hloc : RowLocal (F := F)) (c : Dev nD) :
    BodyObligationLoose (dats (F := F) m 0 c) (defs₀ (F := F)) Variants.none () Set.univ := fun t => by
  rw [bigSep_W0, bigSep_W0]
  exact sound_body m hloc c t

/-! ## The run -/

set_option backward.isDefEq.respectTransparency.types false in
/-- Every weakly fair execution of the program terminates, nothing faulting; every array of the pipeline ends at
    what the proof data computes (an input as found, the output overwritten block by block by the rows inside it of
    what each point's body left) and every other buffer as the reshape after the region leaves it. -/
theorem run_main (hloc : RowLocal (F := F)) :
    θ_run defs (onTc (τ := τ) (main (F := F))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.QLinear.IdealBody

end
-- ==== Proof.IdealPayload.lean ====
/-
  The kernel body's arithmetic at an index.

  The body multiplies a block x : [2000, 640] by a matrix W : [640, 1280] into a zero accumulator and adds a row
  vector c : [1, 1280] broadcast over the 2000 rows. Over the extended reals a change of float format is the
  identity, a cast to the same shape does nothing, the product into the zero accumulator is the plain sum over the
  640 contraction positions, and the broadcast reads the one row of c. So at row p and column n the body's value is
      (Σ_{k < 640} x(p, k) · W(k, n)) + c(0, n).
-/
import proofs.«140195_j31576599561040_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.QLinear.Payload

open Cert.KernelIdeal Cert.KernelIdeal.Gen Idealize.ShloMosaic Idealize.SL.Sem Idealize.ShloMosaic.ValueIdx

/-! ## The operand indices of the contraction -/

/-- The left operand is read in the output's row … -/
theorem lhs_row (i : S2000x1280.Idx) (q : dot_S2000x640_S640x1280_S2000x1280_1_0_0_1_n_n.contr.Idx) :
    (dot_S2000x640_S640x1280_S2000x1280_1_0_0_1_n_n.lhsIdx i q 0).val = (i 0).val := by
  unfold DotDims.lhsIdx
  rw [dif_neg (show ¬(0 : Fin S2000x640.rank) ∈ dot_S2000x640_S640x1280_S2000x1280_1_0_0_1_n_n.lhsBatch by decide),
    dif_pos (show (0 : Fin S2000x640.rank) ∈ dot_S2000x640_S640x1280_S2000x1280_1_0_0_1_n_n.lhsNonContracting by decide)]
  rfl
/-- … at the contraction position; … -/
theorem lhs_col (i : S2000x1280.Idx) (q : dot_S2000x640_S640x1280_S2000x1280_1_0_0_1_n_n.contr.Idx) :
    (dot_S2000x640_S640x1280_S2000x1280_1_0_0_1_n_n.lhsIdx i q 1).val = (q ⟨0, by decide⟩).val :=
  dot_S2000x640_S640x1280_S2000x1280_1_0_0_1_n_n.lhsIdx_val_of_single rfl i q
/-- … the right operand in the row of the contraction position … -/
theorem rhs_row (i : S2000x1280.Idx) (q : dot_S2000x640_S640x1280_S2000x1280_1_0_0_1_n_n.contr.Idx) :
    (dot_S2000x640_S640x1280_S2000x1280_1_0_0_1_n_n.rhsIdx i q 0).val = (q ⟨0, by decide⟩).val :=
  dot_S2000x640_S640x1280_S2000x1280_1_0_0_1_n_n.rhsIdx_val_of_single rfl i q
/-- … and in the output's column. -/
theorem rhs_col (i : S2000x1280.Idx) (q : dot_S2000x640_S640x1280_S2000x1280_1_0_0_1_n_n.contr.Idx) :
    (dot_S2000x640_S640x1280_S2000x1280_1_0_0_1_n_n.rhsIdx i q 1).val = (i 1).val := by
  unfold DotDims.rhsIdx
  rw [dif_neg (show ¬(1 : Fin S640x1280.rank) ∈ dot_S2000x640_S640x1280_S2000x1280_1_0_0_1_n_n.rhsBatch by decide),
    dif_pos (show (1 : Fin S640x1280.rank) ∈ dot_S2000x640_S640x1280_S2000x1280_1_0_0_1_n_n.rhsNonContracting by decide)]
  rfl

/-! ## The product into the zero accumulator -/

/-- The matrix product into the zero accumulator, at row p and column n, is the sum over the 640 contraction
    positions of the products of the operands' entries. -/
theorem matmul_zero_apply (a : FVec Ideal S2000x640 .bf16) (w : FVec Ideal S640x1280 .bf16) (p : Fin 2000) (n : Fin 1280) :
    matmul dot_S2000x640_S640x1280_S2000x1280_1_0_0_1_n_n none a w (constant (F := Ideal) S2000x1280 .f32 0x00000000#32) (ix2 p n)
      = ∑ k : Fin 640, a (ix2 p k) * w (ix2 k n) := by
  simp only [matmul]
  rw [Ideal.matmul_constant_zero_apply,
    ← Equiv.sum_comp (contrEquiv1 dot_S2000x640_S640x1280_S2000x1280_1_0_0_1_n_n 640 rfl rfl).symm]
  refine Finset.sum_congr rfl fun k _ => ?_
  have hk := contrEquiv1_symm_val dot_S2000x640_S640x1280_S2000x1280_1_0_0_1_n_n 640 rfl rfl k
  have el : dot_S2000x640_S640x1280_S2000x1280_1_0_0_1_n_n.lhsIdx (ix2 p n) ((contrEquiv1 dot_S2000x640_S640x1280_S2000x1280_1_0_0_1_n_n 640 rfl rfl).symm k)
      = (ix2 p k : S2000x640.Idx) := funext fun ax => Fin.ext (by
    match ax with
    | ⟨0, _⟩ => exact lhs_row _ _
    | ⟨1, _⟩ => exact (lhs_col _ _).trans hk)
  have er : dot_S2000x640_S640x1280_S2000x1280_1_0_0_1_n_n.rhsIdx (ix2 p n) ((contrEquiv1 dot_S2000x640_S640x1280_S2000x1280_1_0_0_1_n_n 640 rfl rfl).symm k)
      = (ix2 k n : S640x1280.Idx) := funext fun ax => Fin.ext (by
    match ax with
    | ⟨0, _⟩ => exact (rhs_row _ _).trans hk
    | ⟨1, _⟩ => exact rhs_col _ _)
  rw [el, er]

/-! ## The body's value -/

/-- The body's stored value at row p and column n: the contraction of the block's row p with the matrix's column
    n, plus the row vector's entry n. -/
theorem pay_apply (x0 : Vec Ideal S2000x640 .f32) (x1 : Vec Ideal S640x1280 .bf16) (x2 : Vec Ideal S1x1280 .f32)
    (p : Fin 2000) (n : Fin 1280) :
    Cert.KernelIdeal.Gen.k0_pay1 (F := Ideal) x0 x1 x2 (ix2 p n)
      = (∑ k : Fin 640, x0 (ix2 p k) * x1 (ix2 k n)) + x2 (ix2 (0 : Fin 1) n) := by
  unfold Cert.KernelIdeal.Gen.k0_pay1
  simp only [shapeCast_self]
  rw [addf_apply, matmul_zero_apply, broadcastTo_1b_ab_apply]
  rfl

end Cert.QLinear.Payload

end
-- ==== Proof.IdealValue.lean ====
/-
  What the idealized kernel computes: the output array after the pipeline's run, as one function of the arrays
  the region finds, index by index — every block a point writes back is a block of that function, and the
  blocks, the last one cut at the array's end, cover the array.
-/
import proofs.«140195_j31576599561040_2_alg».proof.Proof.IdealBody
import proofs.«140195_j31576599561040_2_alg».proof.Proof.IdealPayload
import Idealize.ShloMosaic.Lib.ValueIdx
import Idealize.ShloMosaic.Lib.Pipeline.Value
import Idealize.ShloMosaic.Lib.StableHlo.Run

set_option maxRecDepth 16384

noncomputable section

open scoped BigOperators

namespace Cert.QLinear.IdealValue

open Cert.KernelIdeal Cert.KernelIdeal.Gen Cert.QLinear.IdealBody Cert.QLinear.Payload
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The output's staging buffer after the body holds the body's one stored value. -/
theorem outBlk_eq {F : FTy → Type} [FloatOps F] (x0 : Vec F S2000x640 .f32) (x1 : Vec F S640x1280 .bf16) (x2 : Vec F S1x1280 .f32) :
    outBlk x0 x1 x2 = k0_pay1 x0 x1 x2 := by
  unfold outBlk
  rw [View.canon_unit_zero hz]
  simp only [View.ld_unit_zero (S := S2000x640) hz, View.ld_unit_zero (S := S640x1280) hz, View.ld_unit_zero (S := S1x1280) hz]

/-- The index maps over the grid: the rows of x and of the output move with the point, 2000 rows a point, the last
    point's block cut to the 1250 rows left; the weight and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_0.xsize (grid0.coords t) (0 : Fin 2) = (if t.val = 15 then 1250 else 2000)
    ∧ win0_0.xsize (grid0.coords t) (1 : Fin 2) = 640
    ∧ win0_3.xsize (grid0.coords t) (0 : Fin 2) = (if t.val = 15 then 1250 else 2000)
    ∧ win0_3.xsize (grid0.coords t) (1 : Fin 2) = 1280 :=
  (by decide +kernel : ∀ t : Fin grid0.N, _)

/-- A row of the output block inside the array is a row of the x block inside the array. -/
theorem moved_x (t : Fin cfg0.N) (y : (win0_3.xblock (grid0.coords t)).Idx) (k : Fin 640) :
    win0_0.moved (grid0.coords t) (ix2 (⟨(y 0).val, Nat.lt_of_lt_of_le (y 0).isLt (win0_3.xsize_le (grid0.coords t) 0)⟩ : Fin 2000) k) = true := by
  obtain ⟨-, -, -, -, -, -, -, -, e8, e9, e10, -⟩ := idx_facts t
  rw [win0_0.moved_iff]
  intro a
  match a with
  | ⟨0, _⟩ =>
    show (y 0).val < win0_0.xsize (grid0.coords t) (0 : Fin 2)
    have hy : (y 0).val < win0_3.xsize (grid0.coords t) (0 : Fin 2) := (y 0).isLt
    rw [e8]; rw [e10] at hy; exact hy
  | ⟨1, _⟩ =>
    show k.val < win0_0.xsize (grid0.coords t) (1 : Fin 2)
    rw [e9]; exact k.isLt

/-- An index of the output block's part inside the array, by its two coordinates. -/
theorem xinj_eq (t : Fin cfg0.N) (y : (win0_3.xblock (grid0.coords t)).Idx) :
    win0_3.xinj (grid0.coords t) y
      = ix2 (⟨(y 0).val, Nat.lt_of_lt_of_le (y 0).isLt (win0_3.xsize_le (grid0.coords t) 0)⟩ : Fin 2000)
            (⟨(y 1).val, Nat.lt_of_lt_of_le (y 1).isLt (win0_3.xsize_le (grid0.coords t) 1)⟩ : Fin 1280) :=
  funext fun a => match a with | ⟨0, _⟩ => rfl | ⟨1, _⟩ => rfl

/-- ROW LOCALITY at the ideal instance: an entry of the product in a row inside the array sums over that row of x
    only, and the fetch landed that row whatever the buffer holds past the array's end. -/
theorem rowLocal : RowLocal (F := Ideal) := by
  intro t d d' g x1 x2
  funext y
  show outBlk (win0_0.fill (grid0.coords t) d g) x1 x2 (win0_3.xinj (grid0.coords t) y)
    = outBlk (win0_0.fill (grid0.coords t) d' g) x1 x2 (win0_3.xinj (grid0.coords t) y)
  rw [outBlk_eq, outBlk_eq, xinj_eq, pay_apply, pay_apply]
  refine congrArg (· + _) (Finset.sum_congr rfl fun k _ => congrArg (· * _) ?_)
  unfold Window.fill
  rw [dif_pos (moved_x t y k), dif_pos (moved_x t y k)]

/-! ## The output array after the run, in closed form -/

/-- The kernel's [31250, 1280] output as ONE function of the three arrays the region finds (the regrouped rows
    X, the big weight Wb, the bias row Bb): entry (r, n) is the r-th row of X times the n-th column of Wb, plus
    Bb's n-th entry. -/
def G2 (X : S31250x640.Idx → EReal) (Wb : S640x1280.Idx → EReal) (Bb : S1x1280.Idx → EReal) : S31250x1280.Idx → EReal :=
  fun i => (∑ k : Fin 640, X (ix2 (i 0) k) * Wb (ix2 k (i 1))) + Bb (ix2 (0 : Fin 1) (i 1))

/-- The number of grid points. -/
theorem hN : cfg0.N = 16 := N_0

/-- The two coordinates of the array index a block index of the output's window stands for. -/
theorem emb_row (t : Fin cfg0.N) (y : (win0_3.xblock (grid0.coords t)).Idx) :
    ((((cfg0.win 3).blk t).view.emb y) 0).val = t.val * 2000 + (y 0).val := by
  obtain ⟨-, -, -, -, -, -, e6, -, -, -, -, -⟩ := idx_facts t
  show win0_3.index t (0 : Fin 2) * 2000 + 1 * (y 0).val = _
  rw [e6]; omega
theorem emb_col (t : Fin cfg0.N) (y : (win0_3.xblock (grid0.coords t)).Idx) :
    ((((cfg0.win 3).blk t).view.emb y) 1).val = (y 1).val := by
  obtain ⟨-, -, -, -, -, -, -, e7, -, -, -, -⟩ := idx_facts t
  show win0_3.index t (1 : Fin 2) * 1280 + 1 * (y 1).val = _
  rw [e7]; omega

/-- The row of x the body reads for an output row inside the array: the fetch landed it, and it is the array's row
    at the same place. -/
theorem x_at (c : Dev nD) (t : Fin cfg0.N) (y : (win0_3.xblock (grid0.coords t)).Idx) (k : Fin 640) :
    xfill m c t (ix2 (⟨(y 0).val, Nat.lt_of_lt_of_le (y 0).isLt (win0_3.xsize_le (grid0.coords t) 0)⟩ : Fin 2000) k)
      = V m c main_v26 (ix2 ((((cfg0.win 3).blk t).view.emb y) 0) k) := by
  obtain ⟨e0, e1, -, -, -, -, -, -, -, -, -, -⟩ := idx_facts t
  unfold xfill Window.fill
  rw [dif_pos (moved_x t y k)]
  unfold iblk
  rw [View.read_apply]
  refine congrArg (V m c main_v26) (funext fun a => Fin.ext ?_)
  match a with
  | ⟨0, _⟩ =>
    show win0_0.index t (0 : Fin 2) * 2000 + 1 * (y 0).val = ((((cfg0.win 3).blk t).view.emb y) 0).val
    rw [emb_row, e0]; omega
  | ⟨1, _⟩ =>
    show win0_0.index t (1 : Fin 2) * 640 + 1 * k.val = k.val
    rw [e1]; omega

/-- The big weight's one block is the whole array, -/
theorem w_emb (t : Fin cfg0.N) (j : S640x1280.Idx) : ((cfg0.win 1).blk t).view.emb j = j := by
  obtain ⟨-, -, e2, e3, -, -, -, -, -, -, -, -⟩ := idx_facts t
  funext a; apply Fin.ext
  match a with
  | ⟨0, _⟩ => show win0_1.index t (0 : Fin 2) * 640 + 1 * (j 0).val = (j 0).val; rw [e2]; omega
  | ⟨1, _⟩ => show win0_1.index t (1 : Fin 2) * 1280 + 1 * (j 1).val = (j 1).val; rw [e3]; omega
theorem w_whole (c : Dev nD) (t : Fin cfg0.N) : iblk m c 1 t = V m c main_v21 := by
  funext j
  unfold iblk
  rw [View.read_apply]
  exact congrArg (V m c main_v21) (w_emb t j)

/-- and so is the bias row's. -/
theorem b_emb (t : Fin cfg0.N) (j : S1x1280.Idx) : ((cfg0.win 2).blk t).view.emb j = j := by
  obtain ⟨-, -, -, -, e4, e5, -, -, -, -, -, -⟩ := idx_facts t
  funext a; apply Fin.ext
  match a with
  | ⟨0, _⟩ => show win0_2.index t (0 : Fin 2) * 1 + 1 * (j 0).val = (j 0).val; rw [e4]; omega
  | ⟨1, _⟩ => show win0_2.index t (1 : Fin 2) * 1280 + 1 * (j 1).val = (j 1).val; rw [e5]; omega
theorem b_whole (c : Dev nD) (t : Fin cfg0.N) : iblk m c 2 t = V m c main_v25 := by
  funext j
  unfold iblk
  rw [View.read_apply]
  exact congrArg (V m c main_v25) (b_emb t j)

/-- WHAT POINT t WRITES BACK — the rows inside the array of what the body left — is block t of G2. -/
theorem flushed_eq (c : Dev nD) (t : Fin cfg0.N) :
    (dats m 0 c).flushed 3 t = ((cfg0.win 3).blk t).view.read (Elt Ideal) (G2 (V m c main_v26) (V m c main_v21) (V m c main_v25)) := by
  show (cfg0.win 3).cut (grid0.coords t) ((dats m 0 c).after 3 t) = _
  rw [after0_3, outBlk_eq, w_whole, b_whole]
  funext y
  show k0_pay1 (xfill m c t) (V m c main_v21) (V m c main_v25) (win0_3.xinj (grid0.coords t) y)
    = G2 (V m c main_v26) (V m c main_v21) (V m c main_v25) (((cfg0.win 3).blk t).view.emb y)
  have hn : (⟨(y 1).val, Nat.lt_of_lt_of_le (y 1).isLt (win0_3.xsize_le (grid0.coords t) 1)⟩ : Fin 1280)
      = (((cfg0.win 3).blk t).view.emb y) 1 := Fin.ext (emb_col t y).symm
  rw [xinj_eq, pay_apply, hn]
  unfold G2
  exact congrArg (· + _) (Finset.sum_congr rfl fun k _ => by rw [x_at])

/-- An index of the array is in point t's block iff each coordinate is in the block's range cut at the array's end. -/
theorem mem_blk (t : Fin cfg0.N) (i : S31250x1280.Idx) :
    i ∈ ((cfg0.win 3).blk t).view.set ↔ ∀ a : Fin 2, win0_3.index t a * S2000x1280.size a ≤ (i a).val
      ∧ (i a).val < win0_3.index t a * S2000x1280.size a + win0_3.xsize (grid0.coords t) a := by
  show i ∈ ((View.whole main_v27).slice (win0_3.rect t)).set ↔ _
  rw [View.set_slice_whole, Rect.mem_set_unit]
  exact Iff.rfl

/-- Every row of the array is in the block of the point that its 2000-row group names: 15 whole blocks and the
    1250 rows of the last. -/
theorem cover (i : S31250x1280.Idx) :
    ∃ t : Fin cfg0.N, (cfg0.win 3).flush t = true ∧ i ∈ ((cfg0.win 3).blk t).view.set := by
  have hi0 : (i 0).val < 31250 := (i 0).isLt
  have hi1 : (i 1).val < 1280 := (i 1).isLt
  refine ⟨⟨(i 0).val / 2000, by rw [hN]; omega⟩, flush0_3 _, ?_⟩
  obtain ⟨-, -, -, -, -, -, e6, e7, -, -, e10, e11⟩ := idx_facts ⟨(i 0).val / 2000, by rw [hN]; omega⟩
  rw [mem_blk]
  intro a
  match a with
  | ⟨0, _⟩ =>
    show win0_3.index _ (0 : Fin 2) * 2000 ≤ (i 0).val ∧ (i 0).val < win0_3.index _ (0 : Fin 2) * 2000 + win0_3.xsize _ (0 : Fin 2)
    rw [e6, e10]
    show (i 0).val / 2000 * 2000 ≤ (i 0).val ∧ (i 0).val < (i 0).val / 2000 * 2000 + (if (i 0).val / 2000 = 15 then 1250 else 2000)
    split <;> omega
  | ⟨1, _⟩ =>
    show win0_3.index _ (1 : Fin 2) * 1280 ≤ (i 1).val ∧ (i 1).val < win0_3.index _ (1 : Fin 2) * 1280 + win0_3.xsize _ (1 : Fin 2)
    rw [e7, e11]; omega

/-- THE OUTPUT ARRAY after the run is G2 of the arrays the region finds. -/
theorem final (c : Dev nD) :
    (dats m 0 c).arrAt 3 cfg0.N = G2 (V m c main_v26) (V m c main_v21) (V m c main_v25) :=
  (dats m 0 c).arrAt_eq_of_cover 3 _ (fun t _ => flushed_eq m c t) cover

end Cert.QLinear.IdealValue

end
-- ==== Proof.IdealRun.lean ====
/-
  The idealized kernel's run read back: after the pipeline, the one host line left reshapes the [31250, 1280]
  output array to [4000000, 10]; so the program's result is that reshape of the closed form of the output array,
  and the three argument arrays end as launched.
-/
import proofs.«140195_j31576599561040_2_alg».proof.Proof.IdealValue

set_option maxRecDepth 16384

noncomputable section

namespace Cert.QLinear.IdealRun

open Cert.KernelIdeal Cert.KernelIdeal.Gen Cert.QLinear.IdealBody Cert.QLinear.IdealValue
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The result buffer after the host line that follows the region: the reshape of the output array as the run left it. -/
theorem tail_result (c : Dev nD) :
    Pipeline.afterTail₀ cfgs (dats m) 0 (V0 m) [hostOps1] c main_v28
      = shapeCast S4000000x10 ((dats m 0 c).arrAt 3 cfg0.N) shapeCasts_S31250x1280_S4000000x10 := by
  unfold Pipeline.afterTail₀
  show StableHlo.after hostOps1 _ (Proc.devRef .tc main_v28) = _
  after_results
  funext i
  exact congrFun (congrArg (fun Y => shapeCast S4000000x10 Y shapeCasts_S31250x1280_S4000000x10)
    (Pipeline.withArrays_arr spec0 launch0.win.arr_inj c (V0 m c) (fun w => (dats m 0 c).arrAt w (cfgs 0).N) 3)) i

/-- THE RUN: every weakly fair execution terminates, nothing faulting, with the result at the reshape of the
    closed form and the arguments unchanged. -/
theorem run : θ_run defs (onTc (τ := τ) (main (F := Ideal))) ⟨m, fun _ => 0, ρ⟩ (fun r => ∀ c : Dev nD,
      r.2.mem ((c.tc : Thread nD τ).loc main_v28)
        = shapeCast S4000000x10 (G2 (V m c main_v26) (V m c main_v21) (V m c main_v25)) shapeCasts_S31250x1280_S4000000x10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v28 (Pipeline.mem_restRefs_of main_v28 (by decide) (by decide))).trans
        ((tail_result m c).trans (by rw [final])),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ rowLocal)

end Cert.QLinear.IdealRun

end
-- ==== Proof.LibOneHot.lean ====
/-
  One-hot selection, on words and on the extended reals.

  A 0/1 matrix with a single one per column, built by comparing two integer arrays for equality and converting the answer
  bit to a float, selects one entry of whatever row it is multiplied with:

  * comparing the 32-bit words of two numbers below 2³² for equality compares the numbers, and the answer bit, read as an
    unsigned number, is 1 or 0 (`cmpi_eq_toNat`); converted to a float over the extended reals it is the real number 1 or 0
    (`uitofp_cmpi_eq`);
  * a sum of products of a family of extended reals with such an indicator has a single surviving term, the family's value
    where the indicator is one (`sum_mul_indicator`).  No finiteness is needed: a product with the real number zero is zero
    for every extended real, the infinities included.
-/
import Idealize.ShloMosaic.PureOps
import Idealize.ShloMosaic.PureOps.Ideal

noncomputable section

open scoped BigOperators

namespace Cert.LibOneHot

open Idealize.ShloMosaic

/-- Equality of the words of two numbers below 2³² is equality of the numbers; the answer bit read as a number. -/
theorem cmpi_eq_toNat (a b : ℕ) (ha : a < 2 ^ 32) (hb : b < 2 ^ 32) :
    (IntOp.cmpi .eq (BitVec.ofNat 32 a) (BitVec.ofNat 32 b)).toNat = if a = b then 1 else 0 := by
  unfold IntOp.cmpi
  by_cases h : a = b
  · subst h; simp
  · have hne : BitVec.ofNat 32 a ≠ BitVec.ofNat 32 b := fun hh => h (by
      have := congrArg BitVec.toNat hh
      rwa [BitVec.toNat_ofNat, BitVec.toNat_ofNat, Nat.mod_eq_of_lt ha, Nat.mod_eq_of_lt hb] at this)
    simp [h, hne]

/-- The same answer bit converted to a float of any format, over the extended reals: the real number 1 or 0. -/
theorem uitofp_cmpi_eq (φ : FTy) (a b : ℕ) (ha : a < 2 ^ 32) (hb : b < 2 ^ 32) :
    (FloatOps.uitofp (F := Ideal) φ (IntOp.cmpi .eq (BitVec.ofNat 32 a) (BitVec.ofNat 32 b)) : EReal)
      = (((if a = b then 1 else 0 : ℕ) : ℝ) : EReal) := by
  show ((((IntOp.cmpi .eq (BitVec.ofNat 32 a) (BitVec.ofNat 32 b)).toNat : ℕ) : ℝ) : EReal) = _
  rw [cmpi_eq_toNat a b ha hb]

/-- A family of extended reals against a 0/1 indicator with its single one at `i₀`: only the term at `i₀` survives. -/
theorem sum_mul_indicator {ι : Type*} [Fintype ι] [DecidableEq ι] (f : ι → EReal) (i₀ : ι) :
    ∑ i : ι, f i * (((if i₀ = i then 1 else 0 : ℕ) : ℝ) : EReal) = f i₀ := by
  rw [Finset.sum_eq_single i₀]
  · rw [if_pos rfl, Nat.cast_one, EReal.coe_one, mul_one]
  · intro i _ hi
    rw [if_neg (fun h => hi h.symm), Nat.cast_zero, EReal.coe_zero, mul_zero]
  · intro h; exact absurd (Finset.mem_univ _) h

end Cert.LibOneHot

end
-- ==== Proof.HostSide.lean ====
/-
  The arrays the kernel's one launch finds, and the reshape after it, read at an index.

  Every line of the host program around the launch is a re-arrangement or a pointwise product, so each array it
  writes holds, at an index given by explicit coordinates, one entry (or a product of two entries) of the
  arrays it was computed from.  Grouping 128 consecutive rows of x : [4000000, 5] into one row of length 640
  keeps row-major positions: 640 r + k = 5 (128 r + k / 5) + k % 5.  The block-diagonal weight is the
  Kronecker product of the 128 × 128 identity with A : [5, 10], flattened from [128, 5, 128, 10] to
  [640, 1280]: at (k, n) it holds A (k % 5, n % 10) when k / 5 = n / 10 and zero otherwise.  The bias row is
  the bias repeated 128 times: at column n it holds bias (n % 10).  The final reshape of the launch's result
  Y : [31250, 1280] to [4000000, 10] again keeps positions: 10 i + o = 1280 (i / 128) + 10 (i % 128) + o.
-/
import proofs.«140195_j31576599561040_2_alg».proof.Proof.Gen.KernelIdeal.Frame
import Idealize.ShloMosaic.Lib.Pipeline.Value
import Idealize.ShloMosaic.Lib.ValueIdx
import proofs.«140195_j31576599561040_2_alg».proof.Proof.LibOneHot

set_option maxRecDepth 16384

noncomputable section

namespace Cert.QLinear.Host

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (c : Dev nD)

/-! ## The grouped input -/

/-- The launch's first operand is the input viewed as [31250, 640]. -/
theorem x2_eq : (Gen.V (F := Ideal) m c main_v26 : FVec Ideal S31250x640 .f32)
    = shapeCast S31250x640 (m ((c : Thread nD τ).loc main_arg0) : FVec Ideal S4000000x5 .f32)
        shapeCasts_S4000000x5_S31250x640 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Entry k of grouped row r is entry k % 5 of the input's row 128 r + k / 5. -/
theorem x2_apply (r : Fin 31250) (k : Fin 640) :
    (Gen.V (F := Ideal) m c main_v26 : FVec Ideal S31250x640 .f32) (ix2 r k)
      = (m ((c : Thread nD τ).loc main_arg0) : FVec Ideal S4000000x5 .f32)
          (ix2 (⟨128 * r.val + k.val / 5, by omega⟩ : Fin 4000000) (⟨k.val % 5, by omega⟩ : Fin 5)) := by
  rw [x2_eq]
  refine shapeCast_apply (s := S4000000x5) (t := S31250x640) _ _ _ _ ?_
  rw [Shape.rowMajor_val_two, Shape.rowMajor_val_two]
  show (128 * r.val + k.val / 5) * 5 + k.val % 5 = r.val * 640 + k.val
  omega

/-! ## The reshape after the launch -/

/-- Entry o of row i of the result is entry 10 (i % 128) + o of row i / 128 of the launch's output. -/
theorem out_apply (Y : FVec Ideal S31250x1280 .f32) (i : Fin 4000000) (o : Fin 10) :
    shapeCast S4000000x10 Y shapeCasts_S31250x1280_S4000000x10 (ix2 i o)
      = Y (ix2 (⟨i.val / 128, by omega⟩ : Fin 31250) (⟨10 * (i.val % 128) + o.val, by omega⟩ : Fin 1280)) := by
  refine shapeCast_apply (s := S31250x1280) (t := S4000000x10) _ _ _ _ ?_
  rw [Shape.rowMajor_val_two, Shape.rowMajor_val_two]
  show i.val / 128 * 1280 + (10 * (i.val % 128) + o.val) = i.val * 10 + o.val
  omega

/-! ## The bias row -/

/-- The launch's third operand: the bias as a [1, 10] row, repeated down 128 rows, flattened, and viewed as one row
    of length 1280. -/
theorem biasbig_eq : (Gen.V (F := Ideal) m c main_v25 : FVec Ideal S1x1280 .f32)
    = shapeCast S1x1280 (shapeCast S1280 (broadcastInDim S128x10 ![0, 1] bcast_S1x10_S128x10_0_1
        (shapeCast S1x10 (m ((c : Thread nD τ).loc main_arg2) : FVec Ideal S10 .f32) shapeCasts_S10_S1x10))
        shapeCasts_S128x10_S1280) shapeCasts_S1280_S1x1280 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Column n of the bias row is the bias at n % 10: position n of the flattened [128, 10] array is its entry
    (n / 10, n % 10), every row of which is the bias. -/
theorem biasbig_apply (z : Fin 1) (n : Fin 1280) :
    (Gen.V (F := Ideal) m c main_v25 : FVec Ideal S1x1280 .f32) (ix2 z n)
      = (m ((c : Thread nD τ).loc main_arg2) : FVec Ideal S10 .f32) (ix1 (⟨n.val % 10, by omega⟩ : Fin 10)) := by
  rw [biasbig_eq]
  refine (shapeCast_apply (s := S1280) (t := S1x1280) _ _ _ (ix1 n) ?_).trans ?_
  · rw [Shape.rowMajor_val_one, Shape.rowMajor_val_two]
    show n.val = z.val * 1280 + n.val
    omega
  refine (shapeCast_apply (s := S128x10) (t := S1280) _ _ _
    (ix2 (⟨n.val / 10, by omega⟩ : Fin 128) (⟨n.val % 10, by omega⟩ : Fin 10)) ?_).trans ?_
  · rw [Shape.rowMajor_val_two, Shape.rowMajor_val_one]
    show n.val / 10 * 10 + n.val % 10 = n.val
    omega
  refine (broadcastInDim_apply (s := S1x10) (t := S128x10) _ _ _ _
    (ix2 (0 : Fin 1) (⟨n.val % 10, by omega⟩ : Fin 10)) ?_).trans ?_
  · intro a
    match a with
    | ⟨0, _⟩ => rfl
    | ⟨1, _⟩ => rfl
  refine shapeCast_apply (s := S10) (t := S1x10) _ _ _ _ ?_
  rw [Shape.rowMajor_val_one, Shape.rowMajor_val_two]
  show n.val % 10 = 0 * 10 + n.val % 10
  omega

/-! ## The block-diagonal weight -/

/-- The 128 × 128 identity as the host program builds it: row number compared with column number, the answer bit
    converted to a float. -/
def eye : FVec Ideal S128x128 .f32 :=
  uitofp .f32 (cmpi .eq (addi (iotaInDim S128x128 32 0) (broadcastInDim S128x128 ![] bcast_S_S128x128 (constantI S_ 32 0#32)))
    (iotaInDim S128x128 32 1))

/-- The Kronecker product of a [128, 128] array E with a [5, 10] array A, as the host program builds it: E and A
    spread over [128, 5, 128, 10], multiplied entry by entry, flattened to [640, 1280], and narrowed. -/
def kron (E : FVec Ideal S128x128 .f32) (A : FVec Ideal S5x10 .f32) : FVec Ideal S640x1280 .bf16 :=
  truncf .bf16 (shapeCast S640x1280
    (mulf
      (broadcastInDim S128x5x128x10 ![0, 1, 2, 3] bcast_S128x1x128x1_S128x5x128x10_0_1_2_3
        (broadcastInDim S128x1x128x1 ![0, 2] bcast_S128x128_S128x1x128x1_0_2 E))
      (broadcastInDim S128x5x128x10 ![0, 1, 2, 3] bcast_S1x5x1x10_S128x5x128x10_0_1_2_3
        (broadcastInDim S1x5x1x10 ![1, 3] bcast_S5x10_S1x5x1x10_1_3 A)))
    shapeCasts_S128x5x128x10_S640x1280) bitsLt_bf16_f32

/-- Entry (k, n) of the Kronecker product: position 1280 k + n of the flattened array is its entry
    (k / 5, k % 5, n / 10, n % 10), which is E (k / 5, n / 10) times A (k % 5, n % 10). -/
theorem kron_apply (E : FVec Ideal S128x128 .f32) (A : FVec Ideal S5x10 .f32) (k : Fin 640) (n : Fin 1280) :
    kron E A (ix2 k n)
      = E (ix2 (⟨k.val / 5, by omega⟩ : Fin 128) (⟨n.val / 10, by omega⟩ : Fin 128))
        * A (ix2 (⟨k.val % 5, by omega⟩ : Fin 5) (⟨n.val % 10, by omega⟩ : Fin 10)) := by
  unfold kron
  rw [truncf_apply]
  refine (shapeCast_apply (s := S128x5x128x10) (t := S640x1280) _ _ _
    (ix4 (⟨k.val / 5, by omega⟩ : Fin 128) (⟨k.val % 5, by omega⟩ : Fin 5)
      (⟨n.val / 10, by omega⟩ : Fin 128) (⟨n.val % 10, by omega⟩ : Fin 10)) ?_).trans ?_
  · rw [Shape.rowMajor_val_four, Shape.rowMajor_val_two]
    show ((k.val / 5 * 5 + k.val % 5) * 128 + n.val / 10) * 10 + n.val % 10 = k.val * 1280 + n.val
    omega
  rw [mulf_apply]
  congr 1
  · refine (broadcastInDim_apply (s := S128x1x128x1) (t := S128x5x128x10) _ _ _ _
      (ix4 (⟨k.val / 5, by omega⟩ : Fin 128) (0 : Fin 1) (⟨n.val / 10, by omega⟩ : Fin 128) (0 : Fin 1)) ?_).trans ?_
    · intro a
      match a with
      | ⟨0, _⟩ => rfl
      | ⟨1, _⟩ => rfl
      | ⟨2, _⟩ => rfl
      | ⟨3, _⟩ => rfl
    refine broadcastInDim_apply (s := S128x128) (t := S128x1x128x1) _ _ _ _ _ ?_
    intro a
    match a with
    | ⟨0, _⟩ => rfl
    | ⟨1, _⟩ => rfl
  · refine (broadcastInDim_apply (s := S1x5x1x10) (t := S128x5x128x10) _ _ _ _
      (ix4 (0 : Fin 1) (⟨k.val % 5, by omega⟩ : Fin 5) (0 : Fin 1) (⟨n.val % 10, by omega⟩ : Fin 10)) ?_).trans ?_
    · intro a
      match a with
      | ⟨0, _⟩ => rfl
      | ⟨1, _⟩ => rfl
      | ⟨2, _⟩ => rfl
      | ⟨3, _⟩ => rfl
    refine broadcastInDim_apply (s := S5x10) (t := S1x5x1x10) _ _ _ _ _ ?_
    intro a
    match a with
    | ⟨0, _⟩ => rfl
    | ⟨1, _⟩ => rfl

/-- The identity's entry (p, q) is one when p = q and zero otherwise. -/
theorem eye_apply (p q : Fin 128) : eye (ix2 p q) = if p.val = q.val then (1 : EReal) else 0 := by
  show FloatOps.uitofp (F := Ideal) .f32
      (IntOp.cmpi .eq (IntOp.addi (BitVec.ofNat 32 p.val) 0#32) (BitVec.ofNat 32 q.val)) = _
  rw [show IntOp.addi (BitVec.ofNat 32 p.val) 0#32 = BitVec.ofNat 32 p.val from BitVec.add_zero _,
    Cert.LibOneHot.uitofp_cmpi_eq .f32 p.val q.val (by omega) (by omega)]
  by_cases h : p.val = q.val
  · rw [if_pos h, if_pos h, Nat.cast_one, EReal.coe_one]
  · rw [if_neg h, if_neg h, Nat.cast_zero, EReal.coe_zero]

/-- Running two stretches of host lines one after the other is running their concatenation. -/
theorem after_append {τ : Topo} {sig : RefSig} {Val : EltTy → Type} (l₁ l₂ : List (HloOp τ sig Val))
    (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The contents at the launch, with the lines that quantize the weight run first and the lines that lay the
    operands out run from what those leave. -/
theorem V0_split : Gen.V0 (F := Ideal) m c
    = StableHlo.after (Gen.hostOps0_4 ++ Gen.hostOps0_5 ++ Gen.hostOps0_6)
        (StableHlo.after (Gen.hostOps0 ++ Gen.hostOps0_1 ++ Gen.hostOps0_2 ++ Gen.hostOps0_3) (fun b => m (c, b))) := by
  dsimp only [Gen.V0]
  rw [← after_append]
  simp only [List.flatten_cons, List.flatten_nil, List.append_nil, List.append_assoc]

set_option maxHeartbeats 1600000 in
/-- The launch's second operand is the Kronecker product of the identity with the transposed dequantized weight. -/
theorem wbig_eq : (Gen.V (F := Ideal) m c main_v21 : FVec Ideal S640x1280 .bf16)
    = kron eye (Gen.V (F := Ideal) m c main_v13 : FVec Ideal S5x10 .f32) := by
  dsimp only [Gen.V]
  rw [V0_split]
  generalize (StableHlo.after (Gen.hostOps0 ++ Gen.hostOps0_1 ++ Gen.hostOps0_2 ++ Gen.hostOps0_3) (fun b => m (c, b))) = W
  simp only [Gen.hostOps0_4, Gen.hostOps0_5, Gen.hostOps0_6, List.cons_append, List.nil_append]
  after_results
  unfold kron eye
  rfl

/-- Entry (k, n) of the block-diagonal weight: the transposed weight's entry (k % 5, n % 10) on the diagonal blocks
    (k / 5 = n / 10), zero off them. -/
theorem wbig_apply (k : Fin 640) (n : Fin 1280) :
    (Gen.V (F := Ideal) m c main_v21 : FVec Ideal S640x1280 .bf16) (ix2 k n)
      = (if k.val / 5 = n.val / 10 then (1 : EReal) else 0)
        * (Gen.V (F := Ideal) m c main_v13 : FVec Ideal S5x10 .f32)
            (ix2 (⟨k.val % 5, by omega⟩ : Fin 5) (⟨n.val % 10, by omega⟩ : Fin 10)) := by
  rw [wbig_eq, kron_apply, eye_apply]

end Cert.QLinear.Host

end
-- ==== Proof.LibBlockDiag.lean ====
/-
  Block-diagonal weights.

  Let A be a matrix with `a` rows and let W = kron(I_n, A) be the block-diagonal matrix that carries n copies of
  A on its diagonal: the entry of W in row k and in column o of block p is
      [k / a = p] · A(k % a, o),
  the indicator being the extended real 1 or 0. This file proves that a row X of length n·a times such a
  column collapses to the product of the p-th length-`a` slice of X with the column o of A:
      Σ_{k < n·a} X(k) · ([k / a = p] · A(k % a, o))  =  Σ_{i < a} X(a·p + i) · A(i, o).
  Everything is over the extended reals, where 0 · x = 0 and 1 · x = x hold for every x, the two infinities
  included; neither distributivity nor finiteness of any entry is used: the index set is split into the n
  blocks, every block other than p is a sum of zeros, and block p is the right-hand side term by term.
  `blockdiag_sum_general` is the statement for any block size and block count, `blockdiag_sum` the instance
  with 128 blocks of 5 rows (a row of length 640).
-/
import Mathlib.Data.EReal.Basic
import Mathlib.Algebra.BigOperators.Fin
import Mathlib.Data.Fintype.BigOperators

open scoped BigOperators

namespace Cert.LibBlockDiag

/-- The position `a·p + i` of the i-th entry of block p lies below `n·a`. -/
theorem block_pos_lt {n a : ℕ} (p : Fin n) (i : Fin a) : a * p.val + i.val < n * a := by
  have h1 : a * p.val + i.val < a * p.val + a := Nat.add_lt_add_left i.isLt _
  have h2 : a * p.val + a = a * (p.val + 1) := by rw [Nat.mul_add, Nat.mul_one]
  have h3 : a * (p.val + 1) ≤ a * n := Nat.mul_le_mul_left a p.isLt
  calc a * p.val + i.val < a * (p.val + 1) := h2 ▸ h1
    _ ≤ a * n := h3
    _ = n * a := Nat.mul_comm a n

/-- A row times a column of the block-diagonal matrix kron(I_n, A) is the p-th slice of the row times the
    column of A, for every block size `a > 0` and every block count `n`. -/
theorem blockdiag_sum_general {n a c : ℕ} (ha : 0 < a) (X : Fin (n * a) → EReal)
    (A : Fin a → Fin c → EReal) (p : Fin n) (o : Fin c) :
    ∑ k : Fin (n * a), X k * ((if k.val / a = p.val then (1 : EReal) else 0)
        * A ⟨k.val % a, Nat.mod_lt _ ha⟩ o)
      = ∑ i : Fin a, X ⟨a * p.val + i.val, block_pos_lt p i⟩ * A i o := by
  -- split the index k = i + a·q into its block q and its position i inside the block
  rw [← (finProdFinEquiv (m := n) (n := a)).sum_comp, Fintype.sum_prod_type]
  rw [Finset.sum_eq_single p]
  · -- the block p itself: the indicator is 1 and the row of A is i
    refine Finset.sum_congr rfl (fun i _ => ?_)
    have hdiv : (i.val + a * p.val) / a = p.val := by
      rw [Nat.add_mul_div_left _ _ ha, Nat.div_eq_of_lt i.isLt, Nat.zero_add]
    have hmod : (i.val + a * p.val) % a = i.val := by
      rw [Nat.add_mul_mod_self_left, Nat.mod_eq_of_lt i.isLt]
    have hX : finProdFinEquiv (p, i) = (⟨a * p.val + i.val, block_pos_lt p i⟩ : Fin (n * a)) :=
      Fin.ext (by simp [finProdFinEquiv, Nat.add_comm])
    have hA : (⟨(finProdFinEquiv (p, i) : Fin (n * a)).val % a, Nat.mod_lt _ ha⟩ : Fin a) = i :=
      Fin.ext (by simpa [finProdFinEquiv] using hmod)
    have hI : (finProdFinEquiv (p, i) : Fin (n * a)).val / a = p.val := by
      simpa [finProdFinEquiv] using hdiv
    rw [hA, if_pos hI, one_mul, hX]
  · -- any other block q: the indicator is 0, so every term is X · (0 · _) = 0
    intro q _ hq
    refine Finset.sum_eq_zero (fun i _ => ?_)
    have hdiv : (i.val + a * q.val) / a = q.val := by
      rw [Nat.add_mul_div_left _ _ ha, Nat.div_eq_of_lt i.isLt, Nat.zero_add]
    have hI : ¬ (finProdFinEquiv (q, i) : Fin (n * a)).val / a = p.val := by
      have : (finProdFinEquiv (q, i) : Fin (n * a)).val / a = q.val := by
        simpa [finProdFinEquiv] using hdiv
      rw [this]
      exact fun h => hq (Fin.ext h)
    rw [if_neg hI, zero_mul, mul_zero]
  · intro h
    exact absurd (Finset.mem_univ p) h

/-- The instance used for a row of length 640 = 128 · 5: the block-diagonal matrix carries 128 copies of a
    matrix A with 5 rows and 10 columns. -/
theorem blockdiag_sum (X : Fin 640 → EReal) (A : Fin 5 → Fin 10 → EReal) (p : Fin 128) (o : Fin 10) :
    ∑ k : Fin 640, X k * ((if k.val / 5 = p.val then (1 : EReal) else 0)
        * A ⟨k.val % 5, Nat.mod_lt _ (by decide)⟩ o)
      = ∑ i : Fin 5, X ⟨5 * p.val + i.val, by omega⟩ * A i o :=
  blockdiag_sum_general (n := 128) (a := 5) (c := 10) (by decide) X A p o

end Cert.LibBlockDiag
-- ==== Proof.Spec.lean ====
/-
  The specification both programs are compared with: a quantized linear layer applied to every row.
  For an input x : [4000000, 5], a matrix A : [5, 10] (the transposed, dequantized weight: entry (k, o) is the
  weight of input feature k in output channel o) and a bias b : [10], the layer's output at row i and channel o is
      (Σ_{k < 5} x(i, k) · A(k, o)) + b(o)
  over the extended reals. A is kept abstract here: both programs build it from the weight argument by the same
  chain of host operations, so nothing of it is ever opened.
-/
import Idealize.ShloMosaic.PureOps.Ideal
import Idealize.ShloMosaic.Lib.ValueIdx

noncomputable section

open scoped BigOperators

namespace Cert.QLinear

open Idealize.ShloMosaic Idealize.ShloMosaic.ValueIdx

/-- The layer's output, index by index: row `i 0`, channel `i 1`. -/
def G (x : (⟨2, ![4000000, 5]⟩ : Shape).Idx → EReal) (A : (⟨2, ![5, 10]⟩ : Shape).Idx → EReal)
    (b : (⟨1, ![10]⟩ : Shape).Idx → EReal) : (⟨2, ![4000000, 10]⟩ : Shape).Idx → EReal :=
  fun i => (∑ k : Fin 5, x (ix2 (i 0) k) * A (ix2 k (i 1))) + b (ix1 (i 1))

theorem G_apply (x : (⟨2, ![4000000, 5]⟩ : Shape).Idx → EReal) (A : (⟨2, ![5, 10]⟩ : Shape).Idx → EReal)
    (b : (⟨1, ![10]⟩ : Shape).Idx → EReal) (r : Fin 4000000) (o : Fin 10) :
    G x A b (ix2 r o) = (∑ k : Fin 5, x (ix2 r k) * A (ix2 k o)) + b (ix1 o) := rfl

end Cert.QLinear

end
-- ==== Proof.Collapse.lean ====
/-
  One row of the regrouped product is one output of the layer.

  The input x : [4000000, 5] is regrouped into rows of length 640 = 128 · 5: row q of the regrouped array holds the
  128 input rows 128·q, …, 128·q + 127 one after the other, entry k being x(128·q + k / 5, k % 5). The weight is
  the block-diagonal matrix with 128 copies of A : [5, 10] on its diagonal, entry (k, n) being
  [k / 5 = n / 10] · A(k % 5, n % 10), and the bias is tiled 128 times, entry n being b(n % 10).
  For an input row r and a channel o, put q = r / 128 and n = 10 · (r % 128) + o. Then column n lies in block
  r % 128 and is channel o of that block, so the product of row q with column n keeps only the 5 entries of the
  block r % 128 (the block-diagonal sum), which are the entries of input row 128·(r / 128) + r % 128 = r; the
  result is (Σ_{i < 5} x(r, i) · A(i, o)) + b(o), the layer's output at (r, o). Over the extended reals, with no
  use of distributivity or finiteness.
-/
import proofs.«140195_j31576599561040_2_alg».proof.Proof.LibBlockDiag
import proofs.«140195_j31576599561040_2_alg».proof.Proof.Spec
import Idealize.ShloMosaic.Lib.ValueIdx

noncomputable section

open scoped BigOperators

namespace Cert.QLinear.Collapse

open Idealize.ShloMosaic Idealize.ShloMosaic.ValueIdx

/-- Row q = r / 128 of the regrouped input against column n = 10 · (r % 128) + o of the block-diagonal weight,
    plus the tiled bias at n, is the layer's output at row r and channel o. -/
theorem collapse (x : (⟨2, ![4000000, 5]⟩ : Shape).Idx → EReal) (A : (⟨2, ![5, 10]⟩ : Shape).Idx → EReal)
    (b : (⟨1, ![10]⟩ : Shape).Idx → EReal) (r : Fin 4000000) (o : Fin 10) (q : Fin 31250) (n : Fin 1280)
    (hq : q.val = r.val / 128) (hn : n.val = 10 * (r.val % 128) + o.val) :
    (∑ k : Fin 640, x (ix2 (⟨128 * q.val + k.val / 5, by omega⟩ : Fin 4000000) (⟨k.val % 5, by omega⟩ : Fin 5))
        * ((if k.val / 5 = n.val / 10 then (1 : EReal) else 0)
          * A (ix2 (⟨k.val % 5, by omega⟩ : Fin 5) (⟨n.val % 10, by omega⟩ : Fin 10))))
      + b (ix1 (⟨n.val % 10, by omega⟩ : Fin 10))
    = Cert.QLinear.G x A b (ix2 r o) := by
  -- the column n is channel o of block r % 128
  have h1 : n.val / 10 = r.val % 128 := by omega
  have h2 : (⟨n.val % 10, by omega⟩ : Fin 10) = o := Fin.ext (by show n.val % 10 = o.val; omega)
  rw [Cert.QLinear.G_apply, h2, h1]
  refine congrArg (· + b (ix1 o)) ?_
  -- the block-diagonal sum keeps the 5 entries of block r % 128
  refine (Cert.LibBlockDiag.blockdiag_sum
    (fun k => x (ix2 (⟨128 * q.val + k.val / 5, by omega⟩ : Fin 4000000) (⟨k.val % 5, by omega⟩ : Fin 5)))
    (fun i o' => A (ix2 i o')) (⟨r.val % 128, by omega⟩ : Fin 128) o).trans ?_
  -- and these are the entries of input row r
  refine Finset.sum_congr rfl fun i _ => ?_
  have key : ∀ (a : Fin 4000000) (c : Fin 5), a = r → c = i →
      x (ix2 a c) * A (ix2 i o) = x (ix2 r i) * A (ix2 i o) := by
    intro a c ha hc
    rw [ha, hc]
  exact key _ _ (Fin.ext (by show 128 * q.val + (5 * (r.val % 128) + i.val) / 5 = r.val; omega))
    (Fin.ext (by show (5 * (r.val % 128) + i.val) % 5 = i.val; omega))

end Cert.QLinear.Collapse

end
-- ==== Proof.Bridge.lean ====
/-
  The kernel's result is the layer's output. The kernel regroups 128 consecutive rows of x into one row of
  length 640, multiplies by the block-diagonal weight that carries 128 copies of the [5, 10] matrix A, adds the
  bias tiled 128 times, and ungroups. Read at row r and channel o: the ungrouping sends (r, o) to row r / 128
  and column 10·(r % 128) + o of the grouped output; there the product's 640 terms are zero outside block
  r % 128 and inside it are the five products x(r, i)·A(i, o); the tiled bias there is b(o).
-/
import proofs.«140195_j31576599561040_2_alg».proof.Proof.IdealValue
import proofs.«140195_j31576599561040_2_alg».proof.Proof.HostSide
import proofs.«140195_j31576599561040_2_alg».proof.Proof.Collapse
import proofs.«140195_j31576599561040_2_alg».proof.Proof.Spec

set_option maxRecDepth 16384

noncomputable section

open scoped BigOperators

namespace Cert.QLinear.Bridge

open Cert.KernelIdeal Cert.KernelIdeal.Gen Cert.QLinear.IdealValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The grouped output at an index, by coordinates. -/
theorem G2_apply (X : S31250x640.Idx → EReal) (Wb : S640x1280.Idx → EReal) (Bb : S1x1280.Idx → EReal) (q : Fin 31250) (n : Fin 1280) :
    G2 X Wb Bb (ix2 q n) = (∑ k : Fin 640, X (ix2 q k) * Wb (ix2 k n)) + Bb (ix2 (0 : Fin 1) n) := rfl

/-- The reshaped closed form of the kernel's output array is the layer's output of the argument arrays and the
    [5, 10] matrix the host lines before the region build from the weight. -/
theorem result_eq :
    shapeCast S4000000x10 (G2 (V m c main_v26) (V m c main_v21) (V m c main_v25)) shapeCasts_S31250x1280_S4000000x10
      = Cert.QLinear.G (m ((c : Thread nD τ).loc main_arg0)) (V m c main_v13) (m ((c : Thread nD τ).loc main_arg2)) := by
  funext i
  obtain ⟨r, o, rfl⟩ : ∃ (r : Fin 4000000) (o : Fin 10), i = ix2 r o := ⟨i 0, i 1, eq_ix2 i⟩
  rw [Cert.QLinear.Host.out_apply, G2_apply]
  refine (congrArg₂ (fun a b : EReal => a + b)
    (Finset.sum_congr rfl fun k _ => congrArg₂ (fun a b : EReal => a * b) (Cert.QLinear.Host.x2_apply m c _ k) (Cert.QLinear.Host.wbig_apply m c k _))
    (Cert.QLinear.Host.biasbig_apply m c 0 _)).trans ?_
  exact Cert.QLinear.Collapse.collapse _ _ _ r o _ _ rfl rfl

end Cert.QLinear.Bridge

end
-- ==== Proof.RefIsLayer.lean ====
/-
  The reference computes the quantized linear layer.

  The reference program forms, from the weight w : [10, 5] alone, a matrix A(w) : [5, 10] (the weight divided by
  its row scale, rounded, clipped, multiplied by the scale again and transposed) and returns
      x · A(w) + bias,
  a contraction over the 5 input features followed by the bias broadcast along the rows. Read at an index (row r,
  channel o) over the extended reals, the result is
      (Σ_{k < 5} x(r, k) · A(w)(k, o)) + bias(o),
  which is the specification `Cert.QLinear.G x (A(w)) bias`. The matrix A(w) is kept as ONE term, `refA w`: the
  chain of operations that builds it is never opened, because the statement compared with this one builds its
  matrix by the same chain.
-/
import proofs.«140195_j31576599561040_2_alg».proof.Proof.Gen.ReferenceIdeal.Read
import proofs.«140195_j31576599561040_2_alg».proof.Proof.Spec

noncomputable section

open scoped BigOperators

namespace Cert.QLinear.Ref

open Cert.ReferenceIdeal Cert.ReferenceIdeal.Gen Idealize.ShloMosaic Idealize.ShloMosaic.TcCoe Idealize.SL.Sem
  Idealize.ShloMosaic.StableHlo Idealize.ShloMosaic.ValueIdx

/-- The matrix the reference multiplies the input with, as a function of the weight argument: the stage of the
    transposed, dequantized weight (entry (k, o) belongs to input feature k and output channel o). -/
def refA (w : FVec Ideal S10x5 .f32) : FVec Ideal S5x10 .f32 :=
  Cert.ReferenceIdeal.Read.val_main_v13 (F := Ideal) w

/-- `refA w` is, term for term, the operand of the contraction in the reference's composed result. -/
theorem refA_eq (w : FVec Ideal S10x5 .f32) :
    transpose S5x10 [1, 0] (mulf (minimumf (broadcastInDim S10x5 ![] bcast_S_S10x5 (sitofp .f32 (constantI S_ 32 1#32))) (maximumf (broadcastInDim S10x5 ![] bcast_S_S10x5 (sitofp .f32 (constantI S_ 32 4294967294#32))) (Host.roundeven (Host.divf (w) (broadcastInDim S10x5 ![0, 1] bcast_S10x1_S10x5_0_1 (maximumf (Host.divf (broadcastInDim S10x1 ![0] bcast_S10_S10x1_0 (Host.reduce FloatOps.maximumf (Host.absf (w)) (constant S_ .f32 0xFF800000#32) reducesTo_S10x5_S10_d1 h_S_)) (broadcastInDim S10x1 ![] bcast_S_S10x1 (constant S_ .f32 0x3F800000#32))) (broadcastInDim S10x1 ![] bcast_S_S10x1 (constant S_ .f32 0x322BCC77#32)))))))) (broadcastInDim S10x5 ![0, 1] bcast_S10x1_S10x5_0_1 (maximumf (Host.divf (broadcastInDim S10x1 ![0] bcast_S10_S10x1_0 (Host.reduce FloatOps.maximumf (Host.absf (w)) (constant S_ .f32 0xFF800000#32) reducesTo_S10x5_S10_d1 h_S_)) (broadcastInDim S10x1 ![] bcast_S_S10x1 (constant S_ .f32 0x3F800000#32))) (broadcastInDim S10x1 ![] bcast_S_S10x1 (constant S_ .f32 0x322BCC77#32))))) transposes_S10x5_S5x10_1_0
      = refA w := rfl

/-- The reference's last stage (the contraction plus the broadcast bias) is the layer, index by index: at row
    `i 0` and channel `i 1` the contraction reads x at (i 0, k) and the matrix at (k, i 1), and the two
    broadcasts of the bias read it at `i 1`. -/
theorem ref_is_layer_val (x : FVec Ideal S4000000x5 .f32) (w : FVec Ideal S10x5 .f32) (b : FVec Ideal S10 .f32) :
    Cert.ReferenceIdeal.Read.val_main_v17 (F := Ideal) x w b = Cert.QLinear.G x (refA w) b := by
  funext i
  have hl : ∀ k : Fin 5, Read.lidx_main_v14 i k = (ix2 (i 0) k : S4000000x5.Idx) := fun k =>
    funext fun a => Fin.ext (by match a with | ⟨0, _⟩ => rfl | ⟨1, _⟩ => rfl)
  have hr : ∀ k : Fin 5, Read.ridx_main_v14 i k = (ix2 k (i 1) : S5x10.Idx) := fun k =>
    funext fun a => Fin.ext (by match a with | ⟨0, _⟩ => rfl | ⟨1, _⟩ => rfl)
  have hb : Read.idx_main_v15 (Read.idx_main_v16 i) = (ix1 (i 1) : S10.Idx) :=
    funext fun a => Fin.ext (by match a with | ⟨0, _⟩ => rfl)
  rw [Read.val_main_v17_apply, Read.val_main_v14_apply, Read.val_main_v16_apply, Read.val_main_v15_apply]
  simp only [hl, hr, hb, Ideal.addf_def]
  rfl

/-- The term the reference's run states for its result, as a function of the three argument arrays, is the
    layer `G` of the input, the matrix `refA w` and the bias. -/
theorem ref_is_layer (x : FVec Ideal S4000000x5 .f32) (w : FVec Ideal S10x5 .f32) (b : FVec Ideal S10 .f32) :
    addf (Host.dotGeneral dot_S4000000x5_S5x10_S4000000x10_1_0_0_1_n_n none (x) (transpose S5x10 [1, 0] (mulf (minimumf (broadcastInDim S10x5 ![] bcast_S_S10x5 (sitofp .f32 (constantI S_ 32 1#32))) (maximumf (broadcastInDim S10x5 ![] bcast_S_S10x5 (sitofp .f32 (constantI S_ 32 4294967294#32))) (Host.roundeven (Host.divf (w) (broadcastInDim S10x5 ![0, 1] bcast_S10x1_S10x5_0_1 (maximumf (Host.divf (broadcastInDim S10x1 ![0] bcast_S10_S10x1_0 (Host.reduce FloatOps.maximumf (Host.absf (w)) (constant S_ .f32 0xFF800000#32) reducesTo_S10x5_S10_d1 h_S_)) (broadcastInDim S10x1 ![] bcast_S_S10x1 (constant S_ .f32 0x3F800000#32))) (broadcastInDim S10x1 ![] bcast_S_S10x1 (constant S_ .f32 0x322BCC77#32)))))))) (broadcastInDim S10x5 ![0, 1] bcast_S10x1_S10x5_0_1 (maximumf (Host.divf (broadcastInDim S10x1 ![0] bcast_S10_S10x1_0 (Host.reduce FloatOps.maximumf (Host.absf (w)) (constant S_ .f32 0xFF800000#32) reducesTo_S10x5_S10_d1 h_S_)) (broadcastInDim S10x1 ![] bcast_S_S10x1 (constant S_ .f32 0x3F800000#32))) (broadcastInDim S10x1 ![] bcast_S_S10x1 (constant S_ .f32 0x322BCC77#32))))) transposes_S10x5_S5x10_1_0)) (broadcastInDim S4000000x10 ![0, 1] bcast_S1x10_S4000000x10_0_1 (broadcastInDim S1x10 ![1] bcast_S10_S1x10_1 (b)))
      = Cert.QLinear.G x (refA w) b :=
  (Cert.ReferenceIdeal.Read.val_main_v17_eq (F := Ideal) x w b).trans (ref_is_layer_val x w b)

end Cert.QLinear.Ref

end
-- ==== Proof.WeightSide.lean ====
/-
  The kernel and the reference quantize the weight by the same chain.

  Both programs form, from the weight w : [10, 5] alone, the matrix A(w) : [5, 10]: each row's largest absolute value
  is the row's scale (floored at a tiny positive constant), the weight is divided by its row's scale, rounded to the
  nearest integer, clipped to [-2, 1], multiplied by the scale again, and transposed.  The host lines of the kernel
  before its launch are, operation for operation and literal for literal, the lines of the reference, so the two
  matrices are one and the same term of w; nothing about the arithmetic is used.
-/
import proofs.«140195_j31576599561040_2_alg».proof.Proof.HostSide
import proofs.«140195_j31576599561040_2_alg».proof.Proof.RefIsLayer

set_option maxRecDepth 16384

noncomputable section

namespace Cert.QLinear.Weight

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (c : Dev nD)

/-- The lines that lay the launch's operands out leave the transposed product of the clipped quotient and the
    spread scale, whatever the earlier lines left in those two buffers. -/
theorem layout_keeps (W : Valuation τ sig (Elt Ideal)) :
    @Eq (FVec Ideal S5x10 .f32)
      (StableHlo.after (Gen.hostOps0_4 ++ Gen.hostOps0_5 ++ Gen.hostOps0_6) W (Proc.devRef .tc main_v13))
      (transpose S5x10 [1, 0]
          (mulf (F := Ideal) (s := S10x5) (φ := .f32) (W (Proc.devRef .tc main_v10))
            (broadcastInDim S10x5 ![0, 1] bcast_S10x1_S10x5_0_1 (W (Proc.devRef .tc main_v6) : FVec Ideal S10x1 .f32)))
          transposes_S10x5_S5x10_1_0) := by
  simp only [Gen.hostOps0_4, Gen.hostOps0_5, Gen.hostOps0_6, List.cons_append, List.nil_append]
  after_results

set_option maxHeartbeats 1600000 in
/-- The matrix the kernel's launch multiplies with is the reference's, as a function of the weight argument. -/
theorem kernelA_eq : (Gen.V (F := Ideal) m c main_v13 : FVec Ideal S5x10 .f32)
    = Cert.QLinear.Ref.refA (m ((c : Thread nD τ).loc main_arg1)) := by
  dsimp only [Gen.V]
  rw [Cert.QLinear.Host.V0_split, layout_keeps]
  simp only [Gen.hostOps0, Gen.hostOps0_1, Gen.hostOps0_2, Gen.hostOps0_3, List.cons_append, List.nil_append]
  after_results
  exact Cert.QLinear.Ref.refA_eq (m ((c : Thread nD τ).loc main_arg1))

end Cert.QLinear.Weight

end
-- ==== Proof.lean ====
/-
  A quantized linear layer, kernel against reference, over the extended reals.

  Both programs dequantize the [10, 5] weight by the same chain of host operations into the [5, 10] matrix A
  (never opened here) and the reference computes x·A + b on the 4,000,000 rows of x. The kernel regroups 128
  consecutive rows into one row of length 640, multiplies the 31,250 grouped rows, 2,000 at a grid point, by the
  block-diagonal weight kron(I_128, A), adds the bias tiled 128 times, and ungroups. The last grid point's block
  hangs over the end of the arrays by 750 rows; a row of the product depends on the same row of the left operand
  only, so the rows inside the array are what they should be whatever the staging buffer holds past them, and the
  write-back writes only those. Entry by entry the block-diagonal product collapses to the five-term product with
  A (zero times anything is zero and one times anything is itself on the extended reals, and the sums are only
  regrouped), so the two results are equal with no assumption on the inputs.

  The word-level kernel's frame forgets the output array; the idealized kernel's frame is read off its run; the
  reference's frame off its run; the ideal pass rewrote nothing, so the preservation claim is trivial.
-/
import proofs.«140195_j31576599561040_2_alg».proof.Defs
import proofs.«140195_j31576599561040_2_alg».proof.Proof.Gen.Kernel
import proofs.«140195_j31576599561040_2_alg».proof.Proof.Gen.KernelIdeal
import proofs.«140195_j31576599561040_2_alg».proof.Proof.Gen.ReferenceIdeal
import proofs.«140195_j31576599561040_2_alg».proof.Proof.Gen.ReferenceIdeal.Run
import proofs.«140195_j31576599561040_2_alg».proof.Proof.Gen.ReferenceIdeal.Read
import proofs.«140195_j31576599561040_2_alg».proof.Proof.Gen.Pre_finite_inputs
import proofs.«140195_j31576599561040_2_alg».proof.Proof.WordBody
import proofs.«140195_j31576599561040_2_alg».proof.Proof.IdealRun
import proofs.«140195_j31576599561040_2_alg».proof.Proof.Bridge
import proofs.«140195_j31576599561040_2_alg».proof.Proof.WeightSide
import proofs.«140195_j31576599561040_2_alg».proof.Proof.RefIsLayer
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.QLinear.WordBody.frame (F := Bits) m ρ

/-- So does the idealized kernel: its run with the result dropped. -/
theorem frame_ki : Cert.frame_KernelIdeal := fun m ρ _ =>
  (θ_run Cert.KernelIdeal.defs _ _).mono (fun _ h c => (h c).2) (Cert.QLinear.IdealRun.run m ρ)

/-- And the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the layer's output x·A + b of the arguments,
    A the matrix both build from the weight. -/
theorem algebraic : Cert.algebraic_KernelIdeal_ReferenceIdeal := by
  intro m ρ m' ρ' _ hagree
  refine ⟨fun c => Cert.QLinear.G (m ((c.tc : Thread Cert.KernelIdeal.nD Cert.KernelIdeal.τ).loc Cert.KernelIdeal.main_arg0))
      (Cert.QLinear.Ref.refA (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.QLinear.IdealRun.run m ρ)
    rw [Cert.QLinear.Bridge.result_eq, Cert.QLinear.Weight.kernelA_eq]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.QLinear.Ref.ref_is_layer _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
